-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200704x512 : Shape := ⟨2, ![200704, 512]⟩
abbrev S_ : Shape := ⟨0, ![]⟩

class Facts : Prop where
  bcast_S_S200704x512 : S_.BroadcastsInDim S200704x512 (![] : Fin 0 → Fin S200704x512.rank)
  reducesTo_S200704x512_S_d0_1 : S200704x512.ReducesTo [0, 1] S_
  h_S_ : 0 < S_.numel

variable [Facts]

def fn {F : FTy → Type} [FloatOps F] (main_arg0 : FVec F S200704x512 .f32) : IVec S_ 1 :=
  let main_v0 : FVec F S200704x512 .f32 := Host.absf main_arg0
  let main_cst : FVec F S_ .f32 := constant S_ .f32 0x7F800000#32
  let main_v1 : FVec F S200704x512 .f32 := broadcastInDim S200704x512 ![] bcast_S_S200704x512 main_cst
  let main_v2 : IVec S200704x512 1 := cmpf .olt main_v0 main_v1
  let main_c : IVec S_ 1 := constantI S_ 1 1#1
  let main_v3 : IVec S_ 1 := (fun x v => Host.reduce IntOp.andi x v reducesTo_S200704x512_S_d0_1 h_S_) main_v2 main_c
  main_v3
-- ==== Kernel.lean ====
abbrev S200704x512 : Shape := ⟨2, ![200704, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S200704x512, .f32⟩
  | .hbm, ⟨1, _⟩ => ⟨S200704x512, .i32⟩
  | .local _ .vmem, ⟨0, _⟩ => ⟨S2048x512, .f32⟩
  | .local _ .vmem, ⟨1, _⟩ => ⟨S2048x512, .f32⟩
  | .local _ .vmem, ⟨2, _⟩ => ⟨S2048x512, .i32⟩
  | .local _ .vmem, ⟨3, _⟩ => ⟨S2048x512, .i32⟩
  | _, _ => ⟨S200704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S200704x512.size a
  hwx0_0 : ∀ i : grid0.Coords, EltTy.bits .f32 = 32 ∨ (Rect.block (s := S200704x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S200704x512.size a
  hwx0_1 : ∀ i : grid0.Coords, EltTy.bits .i32 = 32 ∨ (Rect.block (s := S200704x512) S2048x512.size (cc0_transform_1 i) (hinb0_1 i)).WholeWords (EltTy.packing .i32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S200704x512 : Shape := ⟨2, ![200704, 512]⟩
abbrev S_ : Shape := ⟨0, ![]⟩
abbrev S200704 : Shape := ⟨1, ![200704]⟩
abbrev S200704x1 : Shape := ⟨2, ![200704, 1]⟩

abbrev nBuf : Space → Nat
  | .hbm => 7
  | .vmem => 0
  | .smem => 0
  | _ => 0

abbrev bufTy : (tb : Table) → Fin (tcTables nBuf tb) → BufTy
  | .hbm, ⟨0, _⟩ => ⟨S200704x512, .f32⟩
  | .hbm, ⟨1, _⟩ => ⟨S_, .f32⟩
  | .hbm, ⟨2, _⟩ => ⟨S200704, .f32⟩
  | .hbm, ⟨3, _⟩ => ⟨S200704x1, .f32⟩
  | .hbm, ⟨4, _⟩ => ⟨S200704x512, .f32⟩
  | .hbm, ⟨5, _⟩ => ⟨S200704x512, .i1⟩
  | .hbm, ⟨6, _⟩ => ⟨S200704x512, .i32⟩
  | _, _ => ⟨S200704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  reducesTo_S200704x512_S200704_d1 : S200704x512.ReducesTo [1] S200704
  h_S_ : 0 < S_.numel
  bcast_S200704_S200704x1_0 : S200704.BroadcastsInDim S200704x1 (![0] : Fin 1 → Fin S200704x1.rank)
  bcast_S200704x1_S200704x512_0_1 : S200704x1.BroadcastsInDim S200704x512 (![0, 1] : Fin 2 → Fin S200704x512.rank)
  natLt_1_32 : 1 < 32

variable [Facts₀]

class Facts : Prop extends Facts₀ where

variable [Facts]
-- ==== Proof.RowMaxMask.lean ====
/-
  The value both programs end with, as one function of the argument array.

  For an array `X` of 200704 rows and 512 columns of extended reals, entry (r, k) of the result is the 32-bit word
  1 when `X r k` equals the largest entry of row r, and 0 otherwise: the one-bit outcome of the ordered comparison
  "equal", zero-extended. The largest entry of a row is the fold of `max` over the row's 512 entries from the
  value of the f32 word of minus infinity. Every entry of the result depends on one row of `X` only, so a block of
  2048 whole rows can compute its part of the result by itself: that is `block_entry` below, which reads a
  2048×512 block's own row maximum (a lane reduction inside the block) as the row maximum of the array.
-/
import Idealize.ShloMosaic.PureOps.Ideal.Laws
import Idealize.ShloMosaic.Lib.ValueIdx

noncomputable section

namespace Cert.RowMaxMask

open Idealize.ShloMosaic Idealize.ShloMosaic.ValueIdx

/-- The value the maximum is folded from: the f32 word of minus infinity, read as an extended real. -/
abbrev bottom : Ideal .f32 := FloatOps.ofBits (F := Ideal) .f32 0xFF800000#32

/-- The largest entry of row `r`: the fold of `max` over the row's 512 entries, from `bottom`. -/
def rowMax (X : (⟨2, ![200704, 512]⟩ : Shape).Idx → Ideal .f32) (r : Fin 200704) : Ideal .f32 :=
  (Finset.univ : Finset (Fin 512)).fold max bottom (fun k => X (ix2 r k))

/-- THE RESULT: at (r, k) the word 1 when `X r k` is its row's largest entry, else the word 0. -/
def mask (X : (⟨2, ![200704, 512]⟩ : Shape).Idx → Ideal .f32) : (⟨2, ![200704, 512]⟩ : Shape).Idx → BitVec 32 :=
  fun i => (FloatOps.cmpf (F := Ideal) .oeq (X i) (rowMax X (i 0))).setWidth 32

/-- `mask` at an index given by its coordinates. -/
theorem mask_ix2 (X : (⟨2, ![200704, 512]⟩ : Shape).Idx → Ideal .f32) (R : Fin 200704) (k : Fin 512) :
    mask X (ix2 R k) = (FloatOps.cmpf (F := Ideal) .oeq (X (ix2 R k)) (rowMax X R)).setWidth 32 := rfl

/-- A lane reduction `maximumf` of a 2048×512 block along its second axis, at row `r`, is the fold of `max` over
    the 512 entries of the block's row `r`. -/
theorem block_rowMax (P : (⟨2, ![2048, 512]⟩ : Shape).Idx → Ideal .f32)
    (h : Shape.Reduces ⟨2, ![2048, 512]⟩ [1] ⟨1, ![2048]⟩) (hφ : FKind.Formats .f32)
    (hacc : (0xFF800000#32 : BitVec 32) = FKind.maximumf.neutral .f32 hφ) (r : Fin 2048) :
    multiReduction (F := Ideal) .maximumf [1] ⟨1, ![2048]⟩ P 0xFF800000#32 h hφ hacc (ix1 r)
      = (Finset.univ : Finset (Fin 512)).fold max bottom (fun k => P (ix2 r k)) := by
  refine (Ideal.multiReduction_maximumf_single P 0xFF800000#32 h hφ hacc (ix1 r)).trans ?_
  refine congrArg (fun f => (Finset.univ : Finset (Fin 512)).fold max bottom f) ?_
  funext k
  show P (h.lift (ix1 r) k) = P (ix2 r k)
  refine congrArg P ?_
  funext a
  match a with
  | ⟨0, _⟩ => exact Fin.ext rfl
  | ⟨1, _⟩ => exact Fin.ext rfl

/-- A BLOCK OF WHOLE ROWS COMPUTES ITS PART OF THE RESULT. If the block `P` holds rows `b·2048 … b·2048 + 2047` of `X`,
    then comparing the block's entry (r, k) with the block's own row maximum gives `mask X` at row `b·2048 + r`,
    column `k`: the row of the block is the row of the array, so the two maxima are folds of one function. -/
theorem block_entry (P : (⟨2, ![2048, 512]⟩ : Shape).Idx → Ideal .f32)
    (X : (⟨2, ![200704, 512]⟩ : Shape).Idx → Ideal .f32)
    (h : Shape.Reduces ⟨2, ![2048, 512]⟩ [1] ⟨1, ![2048]⟩) (hφ : FKind.Formats .f32)
    (hacc : (0xFF800000#32 : BitVec 32) = FKind.maximumf.neutral .f32 hφ)
    (r : Fin 2048) (R : Fin 200704) (hrow : ∀ k : Fin 512, P (ix2 r k) = X (ix2 R k)) (k : Fin 512) :
    (FloatOps.cmpf (F := Ideal) .oeq (P (ix2 r k))
        (multiReduction (F := Ideal) .maximumf [1] ⟨1, ![2048]⟩ P 0xFF800000#32 h hφ hacc (ix1 r))).setWidth 32
      = mask X (ix2 R k) := by
  rw [mask_ix2, block_rowMax P h hφ hacc r, hrow k]
  unfold rowMax
  rw [show (fun k => P (ix2 r k)) = fun k => X (ix2 R k) from funext hrow]

end Cert.RowMaxMask

end
-- ==== Proof.KernelMask.lean ====
/-
  The kernel computes `mask`.

  The grid has 98 points; point t stages rows `2048·t … 2048·t + 2047` of the argument (all 512 columns), and writes
  back the same rows of the result. Inside a block the body takes each row's maximum by a lane reduction, repeats it
  along the row, compares the block with it for "equal" and zero-extends the bit: at entry (r, k) of the block,
  the comparison of the block's entry with the block's row maximum. A block holds whole rows of the argument, so
  this is `mask` of the argument at row `2048·t + r`, column k (`Cert.RowMaxMask.block_entry`). The 98 blocks
  cover the result array — row R lies in block `R / 2048` — so the array ends as `mask` of the argument.
-/
import proofs.«122266_j3813930959300_2_alg».proof.Proof.Gen.KernelIdeal.Value
import proofs.«122266_j3813930959300_2_alg».proof.Proof.RowMaxMask
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Value Cert.RowMaxMask

variable (m : (ℓ : Loc nD τ sig) → Buf (Elt Ideal) ℓ) (ρ : Dev nD → PrngReg)

theorem hz : (![0, 0] : Fin 2 → Nat) = fun _ => 0 := funext fun a => by fin_cases a <;> rfl

/-- Both windows' blocks at point `t` are block-row `t`, block-column 0 (decided over the 98 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` holds rows `2048·t …` of the argument: its entry (r, k) is the argument's at
    row `2048·t + r`, column k. -/
theorem iblk_apply (c : Dev nD) (t : Fin cfg0.N) (r : Fin 2048) (k : Fin 512) (R : Fin 200704)
    (hR : R.val = t.val * 2048 + r.val) :
    (iblk m c 0 t : Vec Ideal S2048x512 .f32) (ix2 r k)
      = (V m c main_arg0 : S200704x512.Idx → Ideal .f32) (ix2 R k) := by
  obtain ⟨e0, e1, -, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 2048 + 1 * r.val = R.val; rw [e0, hR]; omega
  | ⟨1, _⟩ => show win0_0.index t (1 : Fin 2) * 512 + 1 * k.val = k.val; rw [e1]; omega

/-- What the body leaves in the output block at point `t`, at entry (r, k): `mask` of the argument at row
    `2048·t + r`, column k. -/
theorem out_entry (c : Dev nD) (t : Fin cfg0.N) (r : Fin 2048) (k : Fin 512) (R : Fin 200704)
    (hR : R.val = t.val * 2048 + r.val) :
    (out0_1 (iblk m c 0 t) : Vec Ideal S2048x512 .i32) (ix2 r k) = mask (V m c main_arg0) (ix2 R k) := by
  unfold out0_1
  simp only [View.ld_unit_zero (S := S2048x512) hz]
  refine (canon1_eq (iblk m c 0 t) (ix2 r k)).trans ?_
  have h0 : ix1_0 (ix2 r k) = ix2 r k := by
    funext a
    match a with
    | ⟨0, _⟩ => exact Fin.ext rfl
    | ⟨1, _⟩ => exact Fin.ext rfl
  have h1 : ix1_1 (ix2 r k) = ix1 r := by
    funext a
    match a with
    | ⟨0, _⟩ => exact Fin.ext rfl
  show (FloatOps.cmpf (F := Ideal) .oeq ((iblk m c 0 t : Vec Ideal S2048x512 .f32) (ix1_0 (ix2 r k)))
      ((multiReduction (F := Ideal) .maximumf [1] S2048 (iblk m c 0 t : Vec Ideal S2048x512 .f32) 0xFF800000#32
        reduces_S2048x512_S2048 (.inl rfl) rfl) (ix1_1 (ix2 r k)))).setWidth 32 = _
  rw [h0, h1]
  exact block_entry (iblk m c 0 t) (V m c main_arg0) reduces_S2048x512_S2048 (.inl rfl) rfl r R
    (fun k' => iblk_apply m c t r k' R hR) k

/-- WHAT POINT `t` WRITES BACK is block `t` of `mask` of the argument. -/
theorem flushed_eq (c : Dev nD) (t : Fin cfg0.N) :
    (dats m 0 c).flushed 1 t = ((cfg0.win 1).blk t).view.read (Elt Ideal) (mask (V m c main_arg0)) := by
  rw [flushed1]
  funext j
  obtain ⟨r, k, rfl⟩ : ∃ (r : Fin 2048) (k : Fin 512), j = ix2 r k := ⟨j 0, j 1, eq_ix2 j⟩
  obtain ⟨-, -, e2, e3⟩ := idx_facts t
  have hN : cfg0.N = 98 := N_0
  have hlt : t.val * 2048 + r.val < 200704 := by have := t.isLt; have := r.isLt; omega
  have hemb : ((cfg0.win 1).blk t).view.emb (ix2 r k) = ix2 (⟨t.val * 2048 + r.val, hlt⟩ : Fin 200704) k := by
    funext a
    apply Fin.ext
    match a with
    | ⟨0, _⟩ => show win0_1.index t (0 : Fin 2) * 2048 + 1 * r.val = t.val * 2048 + r.val; rw [e2]; omega
    | ⟨1, _⟩ => show win0_1.index t (1 : Fin 2) * 512 + 1 * k.val = k.val; rw [e3]; omega
  show (out0_1 (iblk m c 0 t) : Vec Ideal S2048x512 .i32) (ix2 r k)
    = mask (V m c main_arg0) (((cfg0.win 1).blk t).view.emb (ix2 r k))
  rw [hemb]
  exact out_entry m c t r k ⟨t.val * 2048 + r.val, hlt⟩ rfl

/-- An index of the result array is in point `t`'s block iff each coordinate is in the block's range on its axis. -/
theorem mem_blk (t : Fin cfg0.N) (i : S200704x512.Idx) :
    i ∈ ((cfg0.win 1).blk t).view.set ↔ ∀ a : Fin 2, win0_1.index t a * S2048x512.size a ≤ (i a).val
      ∧ (i a).val < win0_1.index t a * S2048x512.size a + S2048x512.size a := by
  show i ∈ ((View.whole main_v0).slice (win0_1.rect t)).set ↔ _
  rw [View.set_slice_whole, Rect.mem_set_unit]
  exact Iff.rfl

/-- Every index of the result array is in some point's block: row R is in block `R / 2048`. -/
theorem cover (i : S200704x512.Idx) :
    ∃ t : Fin cfg0.N, (cfg0.win 1).flush t = true ∧ i ∈ ((cfg0.win 1).blk t).view.set := by
  have hi0 : (i 0).val < 200704 := (i 0).isLt
  have hi1 : (i 1).val < 512 := (i 1).isLt
  have hN : cfg0.N = 98 := N_0
  have hq : (i 0).val / 2048 < cfg0.N := by rw [hN]; omega
  obtain ⟨-, -, e2, e3⟩ := idx_facts ⟨(i 0).val / 2048, hq⟩
  have e2' : win0_1.index ⟨(i 0).val / 2048, hq⟩ (0 : Fin 2) = (i 0).val / 2048 := e2
  refine ⟨⟨(i 0).val / 2048, hq⟩, flush0_1 _, ?_⟩
  rw [mem_blk]
  intro a
  match a with
  | ⟨0, _⟩ =>
    show win0_1.index ⟨(i 0).val / 2048, hq⟩ (0 : Fin 2) * 2048 ≤ (i 0).val
      ∧ (i 0).val < win0_1.index ⟨(i 0).val / 2048, hq⟩ (0 : Fin 2) * 2048 + 2048
    rw [e2']; omega
  | ⟨1, _⟩ =>
    show win0_1.index ⟨(i 0).val / 2048, hq⟩ (1 : Fin 2) * 512 ≤ (i 1).val
      ∧ (i 1).val < win0_1.index ⟨(i 0).val / 2048, hq⟩ (1 : Fin 2) * 512 + 512
    rw [e3]; omega

/-- THE RESULT ARRAY after the run is `mask` of the argument. -/
theorem final (c : Dev nD) : (dats m 0 c).arrAt 1 cfg0.N = mask (V m c main_arg0) :=
  (dats m 0 c).arrAt_eq_of_cover 1 (mask (V m c main_arg0)) (fun t _ => flushed_eq m c t) cover

/-- The kernel's run, read: the result array at `mask` of the argument, the argument unchanged. -/
theorem run : θ_run defs (onTc (τ := τ) (main (F := Ideal))) ⟨m, fun _ => 0, ρ⟩ fun r => ∀ c : Dev nD,
      r.2.mem ((c : Thread nD τ).loc main_v0) = mask (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KernelValue

end
-- ==== Proof.RefMask.lean ====
/-
  The reference computes `mask`.

  Its six host operations are: the constant minus infinity; the row maximum, a reduction along the second axis
  with `maximum` from that constant; the maximum re-laid as a 200704×1 column and then repeated along 512 columns;
  the ordered comparison "equal" of the argument with that array; the zero-extension of the one-bit outcome to 32
  bits. Read at an index (r, k): the comparison of `X r k` with the reduction's value at r, which — `max` being
  commutative and associative — is the fold of `max` over row r's 512 entries from minus infinity.
-/
import proofs.«122266_j3813930959300_2_alg».proof.Proof.Gen.ReferenceIdeal.Read
import proofs.«122266_j3813930959300_2_alg».proof.Proof.RowMaxMask

noncomputable section

namespace Cert.ReferenceIdeal.RefValue

open Idealize.ShloMosaic Idealize.ShloMosaic.ValueIdx
open Cert.ReferenceIdeal Cert.ReferenceIdeal.Gen Cert.ReferenceIdeal.Read Cert.RowMaxMask

/-- The shapes of the reference's reduction, as a reduction that drops the second axis. -/
theorem reduces_rows : S200704x512.Reduces [1] S200704 := by decide

/-- The reference's row maximum at row `r` is `rowMax`. -/
theorem rowMax_eq (X : (⟨S200704x512, .f32⟩ : BufTy).Contents (Elt Ideal)) (r : Fin 200704) :
    val_main_v0 (F := Ideal) X (ix1 r) = rowMax X r := by
  unfold val_main_v0
  refine (Host.reduce_eq_fold_single (FloatOps.maximumf (F := Ideal) (φ := .f32)) X (val_main_cst (F := Ideal))
    reducesTo_S200704x512_S200704_d1 reduces_rows h_S_ (ix1 r)).trans ?_
  unfold rowMax
  refine congrArg (fun f => (Finset.univ : Finset (Fin 512)).fold max bottom f) ?_
  funext k
  show X (reduces_rows.lift (ix1 r) k) = X (ix2 r k)
  refine congrArg X ?_
  funext a
  match a with
  | ⟨0, _⟩ => exact Fin.ext rfl
  | ⟨1, _⟩ => exact Fin.ext rfl

/-- THE REFERENCE'S RESULT IS `mask` of its argument. -/
theorem result_eq (X : (⟨S200704x512, .f32⟩ : BufTy).Contents (Elt Ideal)) :
    val_main_v4 (F := Ideal) X = mask X := by
  funext i
  obtain ⟨R, k, rfl⟩ : ∃ (R : Fin 200704) (k : Fin 512), i = ix2 R k := ⟨i 0, i 1, eq_ix2 i⟩
  rw [val_main_v4_apply, val_main_v3_apply, val_main_v2_apply, val_main_v1_apply, mask_ix2]
  have hidx : idx_main_v1 (idx_main_v2 (ix2 R k)) = ix1 R := by
    funext a
    match a with
    | ⟨0, _⟩ => exact Fin.ext rfl
  rw [hidx, rowMax_eq]

end Cert.ReferenceIdeal.RefValue

end
-- ==== Proof.lean ====
/-
  A row-maximum mask: for a 200704×512 array X of floats, the result at (r, k) is the 32-bit word 1 when X r k
  equals the largest entry of row r, and 0 otherwise (ties give several ones in a row).

  The kernel walks the array in 98 blocks of 2048 whole rows; in each block it takes every row's maximum by a lane
  reduction, compares the block with it and writes the zero-extended bit back to the same rows of the result. The
  reference takes the row maxima of the whole array by one reduction, repeats them along the rows, compares and
  zero-extends. Read over the extended reals both results are ONE function of the argument, `Cert.RowMaxMask.mask`:
  an entry of the result depends on its own row only, a block holds whole rows, and a row's maximum is the fold of
  `max` over its 512 entries from minus infinity whichever program folds it (`max` is commutative and associative).
  No arithmetic law that could fail at an infinity is used, so the precondition (finite inputs) is never opened.

  The frames of the two kernel programs and the reference's run are the generated ones; the idealization changed no
  operation, so the preservation claim is `True`.
-/
import proofs.«122266_j3813930959300_2_alg».proof.Defs
import proofs.«122266_j3813930959300_2_alg».proof.Proof.Gen.Kernel
import proofs.«122266_j3813930959300_2_alg».proof.Proof.Gen.Kernel.Skeleton
import proofs.«122266_j3813930959300_2_alg».proof.Proof.Gen.Kernel.Launch
import proofs.«122266_j3813930959300_2_alg».proof.Proof.Gen.Kernel.Points
import proofs.«122266_j3813930959300_2_alg».proof.Proof.Gen.Kernel.Frame
import proofs.«122266_j3813930959300_2_alg».proof.Proof.Gen.KernelIdeal
import proofs.«122266_j3813930959300_2_alg».proof.Proof.Gen.KernelIdeal.Skeleton
import proofs.«122266_j3813930959300_2_alg».proof.Proof.Gen.KernelIdeal.Launch
import proofs.«122266_j3813930959300_2_alg».proof.Proof.Gen.KernelIdeal.Points
import proofs.«122266_j3813930959300_2_alg».proof.Proof.Gen.KernelIdeal.Frame
import proofs.«122266_j3813930959300_2_alg».proof.Proof.Gen.ReferenceIdeal
import proofs.«122266_j3813930959300_2_alg».proof.Proof.Gen.KernelIdeal.Value
import proofs.«122266_j3813930959300_2_alg».proof.Proof.Gen.ReferenceIdeal.Run
import proofs.«122266_j3813930959300_2_alg».proof.Proof.Gen.ReferenceIdeal.Read
import proofs.«122266_j3813930959300_2_alg».proof.Proof.Gen.Pre_finite_inputs
import proofs.«122266_j3813930959300_2_alg».proof.Proof.RowMaxMask
import proofs.«122266_j3813930959300_2_alg».proof.Proof.KernelMask
import proofs.«122266_j3813930959300_2_alg».proof.Proof.RefMask
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- The idealized kernel runs and leaves its argument unchanged. -/
theorem frame_kernelIdeal : Cert.frame_KernelIdeal := fun m ρ _ => Cert.KernelIdeal.Gen.frame m ρ

/-- The idealized reference runs and leaves its argument unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the argument, the kernel's result array and the
    reference's both end at `mask` of the argument. -/
theorem algebraic : Cert.algebraic_KernelIdeal_ReferenceIdeal := by
  intro m ρ m' ρ' _ hagree
  refine ⟨fun c => Cert.RowMaxMask.mask (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
